-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 42
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S128x128, .f32⟩
  | .hbm, ⟨38, _⟩ => ⟨S128x128, .bf16⟩
  | .hbm, ⟨39, _⟩ => ⟨S50000x1, .f32⟩
  | .hbm, ⟨40, _⟩ => ⟨S1x128, .f32⟩
  | .hbm, ⟨41, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S50000_S50000x1 : S50000.ShapeCasts S50000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x1, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .hbm, ⟨50, _⟩ => ⟨S128x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Finite.lean ====
/-
  What the precondition gives: every node feature is a real number.

  The precondition is the conjunction of three tests "every entry has absolute value below +∞", one per float
  argument, each an `and` over all entries. From the whole being true the first conjunct is true, so the test holds at
  every entry of the feature array; and an extended real whose absolute value `max x (-x)` lies strictly below `+∞` is
  neither infinity (at `-∞` the absolute value is `+∞` too), so it is a real number.
-/
import proofs.«133606_j46377056862934_2_alg».proof.Pre_finite_inputs
import Idealize.ShloMosaic.PureOps.Ideal
import Idealize.ShloMosaic.Lib.ValueIdx
import Idealize.ShloMosaic.Lib.ReduceAll
import Idealize.ShloMosaic.Lib.Affine

noncomputable section

open Idealize.ShloMosaic

namespace HighPass

/-- The scalar shape has one index. -/
instance : Subsingleton Cert.Pre_finite_inputs.S_.Idx := ⟨fun _ _ => funext fun d => d.elim0⟩

/-- The pattern of `+∞`. -/
theorem ofBits_inf : Ideal.ofBits .f32 0x7F800000#32 = ⊤ := by
  simp [Ideal.ofBits, Ideal.ieee]

/-- An extended real whose absolute value is strictly below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every entry of the first argument is a real number. -/
theorem features_real [Cert.Pre_finite_inputs.Facts]
    (x0 : FVec Ideal Cert.Pre_finite_inputs.S50000x128 .f32) (x1 : IVec Cert.Pre_finite_inputs.S2x800000 32)
    (x2 : FVec Ideal Cert.Pre_finite_inputs.S128x128 .f32) (x3 : FVec Ideal Cert.Pre_finite_inputs.S128 .f32)
    (h : Cert.Pre_finite_inputs.fn (F := Ideal) x0 x1 x2 x3 = fun _ => 1#1)
    (i : Cert.Pre_finite_inputs.S50000x128.Idx) : ∃ r : ℝ, x0 i = (r : EReal) := by
  have h0 := congrFun h ValueIdx.ix0
  dsimp only [Cert.Pre_finite_inputs.fn] at h0
  have h1 := (IntOp.andi_eq_one.mp h0).1
  have h2 := (IntOp.andi_eq_one.mp h1).1
  have h3 := Host.reduce_andi_all _ _ _ _ _ h2 i
  exact real_of_abs_lt_inf (x0 i) h3

end HighPass

end
-- ==== Proof.LibWrapIdx.lean ====
import Idealize.ShloMosaic.Lib.ValueIdx

/-!
  A NONNEGATIVE INDEX WORD IS NOT WRAPPED.

  Before a row gather both programs replace an index word `v` by `v + 100000` when `v`, read signed, is
  negative (a negative index counts from the end), and keep it otherwise. For a word whose signed reading is
  nonnegative the comparison `v < 0` is false, so the selection returns `v` itself.
-/

open Idealize.ShloMosaic

namespace WrapIdx

/-- The signed comparison `v < 0` of a word whose signed reading is nonnegative is the false bit. -/
theorem cmpi_slt_zero_of_nonneg (v : BitVec 32) (h : 0 ≤ v.toInt) : IntOp.cmpi .slt v 0#32 = 0#1 := by
  have hs : v.slt 0#32 = false := by
    unfold BitVec.slt
    exact decide_eq_false (by simpa using h)
  show BitVec.ofBool (v.slt 0#32) = 0#1
  rw [hs]
  rfl

/-- The signed comparison `v < 0` of a word whose signed reading is negative is the true bit. -/
theorem cmpi_slt_zero_of_neg (v : BitVec 32) (h : v.toInt < 0) : IntOp.cmpi .slt v 0#32 = 1#1 := by
  have hs : v.slt 0#32 = true := by
    unfold BitVec.slt
    exact decide_eq_true (by simpa using h)
  show BitVec.ofBool (v.slt 0#32) = 1#1
  rw [hs]
  rfl

/-- A word whose signed reading is nonnegative is kept: the selection between `v + m` and `v` on `v < 0`
    returns `v`. -/
theorem select_wrap_of_nonneg (v m : BitVec 32) (h : 0 ≤ v.toInt) :
    Scalar.select (IntOp.cmpi .slt v 0#32) (IntOp.addi v m) v = v := by
  rw [cmpi_slt_zero_of_nonneg v h]
  exact ValueIdx.select_zero _ _

/-- The same for the constant `100000` both programs add. -/
theorem wrapIdx_of_nonneg (v : BitVec 32) (h : 0 ≤ v.toInt) :
    Scalar.select (IntOp.cmpi .slt v 0#32) (IntOp.addi v 100000#32) v = v :=
  select_wrap_of_nonneg v 100000#32 h

/-- A word whose signed reading is negative is replaced by `v + m`. -/
theorem select_wrap_of_neg (v m : BitVec 32) (h : v.toInt < 0) :
    Scalar.select (IntOp.cmpi .slt v 0#32) (IntOp.addi v m) v = v + m := by
  rw [cmpi_slt_zero_of_neg v h]
  exact ValueIdx.select_one _ _

end WrapIdx
-- ==== Proof.Spec.lean ====
/-
  The high-pass graph layer, as mathematics over the extended reals.

  A graph has 50000 nodes and 800000 directed edges; edge `e` goes from node `src e` to node `dst e`, both given as
  32-bit words. The words are arbitrary: an edge whose destination word, read signed, is not a node number in
  `[0, 50000)` contributes to no node (a segment sum drops it), and a source word is first wrapped (a negative word
  counts from the end) and then clamped into `[0, 49999]` (a row gather never reads outside the array).

  For a node `n` let `into n` be the edges whose destination is `n`, `deg n` their number (a float sum of ones),
  `degInv n` its reciprocal, or zero for a node no edge enters. The layer's hidden value at node `n`, feature `k`, is
  the node's own feature minus the MEAN of its in-neighbours' features, and the output is `relu (h · Wᵀ + b)`.

  The mean is written in two ways. One sums the neighbours' features and scales the sum by `degInv n` once
  (`nbrSum · degInv`); the other scales every edge's feature by the reciprocal degree of that edge's own
  destination and sums the scaled features (`nbrMean`). Every edge of `into n` has destination `n`, so the per-edge
  factor is `degInv n` for all of them, and the two agree by distributing the factor over the finite sum — a law of
  the real numbers that fails on the extended reals at infinities: it is used here for features that are real
  numbers, with `degInv n` a real number by construction (a reciprocal of a positive count, or zero).
-/
import Idealize.ShloMosaic.PureOps.Ideal
import Idealize.ShloMosaic.PureOps.Ideal.Laws
import Idealize.ShloMosaic.Lib.ValueIdx
import proofs.«133606_j46377056862934_2_alg».proof.Proof.LibWrapIdx

noncomputable section

open scoped BigOperators
open Idealize.ShloMosaic Idealize.ShloMosaic.ValueIdx

namespace HighPass

/-! ## The two float literals -/

/-- The literal `+0.0`. -/
def zero : EReal := Ideal.ofBits .f32 0x00000000#32
/-- The literal `1.0`. -/
def one : EReal := Ideal.ofBits .f32 0x3F800000#32

theorem zero_eq : zero = 0 := Ideal.ofBits_zero_f32

theorem one_eq : one = ((1 : ℝ) : EReal) := by
  unfold one
  simp [Ideal.ofBits, Ideal.ieee, -EReal.coe_mul]
  norm_num

/-! ## The graph -/

abbrev SX : Shape := ⟨2, ![50000, 128]⟩
abbrev SE : Shape := ⟨2, ![2, 800000]⟩
abbrev SW : Shape := ⟨2, ![128, 128]⟩
abbrev SB : Shape := ⟨1, ![128]⟩

/-- The source word of edge `e`: row 0 of the edge array. -/
def src (ei : SE.Idx → BitVec 32) (e : Fin 800000) : BitVec 32 := ei (ix2 0 e)
/-- The destination word of edge `e`: row 1 of the edge array. -/
def dst (ei : SE.Idx → BitVec 32) (e : Fin 800000) : BitVec 32 := ei (ix2 1 e)

/-- A negative index word counts from the end: `v + 50000` when `v < 0`, else `v`. -/
def wrap (v : BitVec 32) : BitVec 32 := Scalar.select (IntOp.cmpi .slt v 0#32) (IntOp.addi v 50000#32) v

/-- The row a gather reads for the index word `v`: wrapped, read signed, clamped into `[0, 49999]`. -/
def pick (v : BitVec 32) : Fin 50000 := ⟨min (wrap v).toInt.toNat (50000 - 1), by omega⟩

/-- The edges that enter node `n`: those whose destination word, read signed, is `n`. -/
def into (ei : SE.Idx → BitVec 32) (n : Fin 50000) : Finset (Fin 800000) :=
  Finset.univ.filter fun e => (dst ei e).toInt = (n.val : Int)

/-- The in-degree of node `n`, as the float sum of one `1.0` per entering edge onto `+0.0`. -/
def deg (ei : SE.Idx → BitVec 32) (n : Fin 50000) : EReal := zero + ∑ _e ∈ into ei n, one

/-- Its reciprocal where it is positive, and `+0.0` elsewhere. -/
def degInv (ei : SE.Idx → BitVec 32) (n : Fin 50000) : EReal :=
  Scalar.select (Ideal.cmp .ogt (deg ei n) zero) (Ideal.div one (deg ei n)) zero

/-- The sum of the in-neighbours' features. -/
def nbrSum (x : SX.Idx → EReal) (ei : SE.Idx → BitVec 32) (n : Fin 50000) (k : Fin 128) : EReal :=
  zero + ∑ e ∈ into ei n, x (ix2 (pick (src ei e)) k)

/-- The sum of the in-neighbours' features, each scaled by the reciprocal degree of its own edge's destination. -/
def nbrMean (x : SX.Idx → EReal) (ei : SE.Idx → BitVec 32) (n : Fin 50000) (k : Fin 128) : EReal :=
  zero + ∑ e ∈ into ei n, x (ix2 (pick (src ei e)) k) * degInv ei (pick (dst ei e))

/-- The dense part: `relu (h · Wᵀ + b)` at node `n`, output feature `c`. -/
def layer (h : Fin 50000 → Fin 128 → EReal) (W : SW.Idx → EReal) (b : SB.Idx → EReal) (n : Fin 50000) (c : Fin 128) :
    EReal :=
  max ((∑ k : Fin 128, h n k * W (ix2 c k)) + b (ix1 c)) zero

/-- The layer with the mean taken as (sum of neighbours) × (reciprocal degree). -/
def sumThenScale (x : SX.Idx → EReal) (ei : SE.Idx → BitVec 32) (W : SW.Idx → EReal) (b : SB.Idx → EReal) :
    SX.Idx → EReal :=
  fun i => layer (fun n k => x (ix2 n k) - nbrSum x ei n k * degInv ei n) W b (i 0) (i 1)

/-- The layer with the mean taken as the sum of the scaled neighbours. -/
def scaleThenSum (x : SX.Idx → EReal) (ei : SE.Idx → BitVec 32) (W : SW.Idx → EReal) (b : SB.Idx → EReal) :
    SX.Idx → EReal :=
  fun i => layer (fun n k => x (ix2 n k) - nbrMean x ei n k) W b (i 0) (i 1)

/-! ## The law -/

/-- The coercion of a finite sum of reals is the sum of the coercions. -/
theorem coe_sum {ι : Type*} (s : Finset ι) (f : ι → ℝ) :
    (∑ e ∈ s, ((f e : ℝ) : EReal)) = ((∑ e ∈ s, f e : ℝ) : EReal) := by
  classical
  induction s using Finset.induction_on with
  | empty => simp
  | insert a s ha ih => rw [Finset.sum_insert ha, Finset.sum_insert ha, ih, EReal.coe_add]

/-- An edge that enters node `n` has a destination word that is neither wrapped nor clamped: it picks `n`. -/
theorem pick_dst_of_mem {ei : SE.Idx → BitVec 32} {n : Fin 50000} {e : Fin 800000} (he : e ∈ into ei n) :
    pick (dst ei e) = n := by
  have h : (dst ei e).toInt = (n.val : Int) := (Finset.mem_filter.mp he).2
  have h0 : 0 ≤ (dst ei e).toInt := by rw [h]; exact Int.natCast_nonneg _
  apply Fin.ext
  show min (wrap (dst ei e)).toInt.toNat (50000 - 1) = n.val
  unfold wrap
  rw [WrapIdx.select_wrap_of_nonneg _ _ h0, h]
  have := n.isLt
  omega

/-- The degree is a real number: a finite sum of ones. -/
theorem deg_real (ei : SE.Idx → BitVec 32) (n : Fin 50000) : ∃ r : ℝ, deg ei n = (r : EReal) := by
  refine ⟨∑ _e ∈ into ei n, (1 : ℝ), ?_⟩
  unfold deg
  rw [zero_eq, zero_add, one_eq, coe_sum]

/-- The reciprocal degree is a real number: the reciprocal of a positive real, or zero. -/
theorem degInv_real (ei : SE.Idx → BitVec 32) (n : Fin 50000) : ∃ r : ℝ, degInv ei n = (r : EReal) := by
  obtain ⟨d, hd⟩ := deg_real ei n
  unfold degInv
  rw [hd, zero_eq]
  by_cases hpos : (0 : EReal) < (d : EReal)
  · have hc : Ideal.cmp .ogt (d : EReal) 0 = 1#1 := by simp [Ideal.cmp, hpos]
    have hne : d ≠ 0 := by
      intro h0; rw [h0] at hpos; exact lt_irrefl _ hpos
    rw [hc, select_one, Ideal.div_coe hne, one_eq, ← EReal.coe_mul]
    exact ⟨_, rfl⟩
  · have hc : Ideal.cmp .ogt (d : EReal) 0 = 0#1 := by simp [Ideal.cmp, hpos]
    rw [hc, select_zero]
    exact ⟨0, EReal.coe_zero.symm⟩

/-- DISTRIBUTING THE RECIPROCAL DEGREE: for real features, scaling the neighbour sum once equals summing the
    neighbours each scaled by its own edge's reciprocal degree. -/
theorem nbrSum_mul_degInv (x : SX.Idx → EReal) (hx : ∀ i, ∃ r : ℝ, x i = (r : EReal))
    (ei : SE.Idx → BitVec 32) (n : Fin 50000) (k : Fin 128) :
    nbrSum x ei n k * degInv ei n = nbrMean x ei n k := by
  obtain ⟨d, hd⟩ := degInv_real ei n
  choose xr hxr using hx
  have e1 : ∑ e ∈ into ei n, x (ix2 (pick (src ei e)) k)
      = ((∑ e ∈ into ei n, xr (ix2 (pick (src ei e)) k) : ℝ) : EReal) := by
    rw [← coe_sum]; exact Finset.sum_congr rfl fun e _ => hxr _
  have e2 : ∑ e ∈ into ei n, x (ix2 (pick (src ei e)) k) * degInv ei (pick (dst ei e))
      = ((∑ e ∈ into ei n, xr (ix2 (pick (src ei e)) k) * d : ℝ) : EReal) := by
    rw [← coe_sum]
    exact Finset.sum_congr rfl fun e he => by rw [pick_dst_of_mem he, hd, hxr, EReal.coe_mul]
  unfold nbrSum nbrMean
  rw [zero_eq, zero_add, zero_add, hd, e1, e2, ← EReal.coe_mul, Finset.sum_mul]

/-! ## The definitions as equations, and then sealed

  The sums above range over all 800000 edges. Nothing downstream may ever compare two extended-real expressions
  containing them by unfolding (the comparison would enumerate the edges), so the defining equations are stated here
  once, for rewriting, and the definitions are then made irreducible. -/

theorem deg_def (ei : SE.Idx → BitVec 32) (n : Fin 50000) :
    deg ei n = zero + ∑ _e ∈ Finset.univ.filter (fun e : Fin 800000 => (dst ei e).toInt = (n.val : Int)), one := by
  unfold deg into; rfl

theorem degInv_def (ei : SE.Idx → BitVec 32) (n : Fin 50000) :
    degInv ei n = Scalar.select (Ideal.cmp .ogt (deg ei n) (Ideal.ofBits .f32 0x00000000#32))
      (Ideal.div (Ideal.ofBits .f32 0x3F800000#32) (deg ei n)) (Ideal.ofBits .f32 0x00000000#32) := by
  unfold degInv zero one; rfl

theorem nbrSum_def (x : SX.Idx → EReal) (ei : SE.Idx → BitVec 32) (n : Fin 50000) (k : Fin 128) :
    nbrSum x ei n k = zero + ∑ e ∈ Finset.univ.filter (fun e : Fin 800000 => (dst ei e).toInt = (n.val : Int)),
      x (ix2 (pick (src ei e)) k) := by
  unfold nbrSum into; rfl

theorem nbrMean_def (x : SX.Idx → EReal) (ei : SE.Idx → BitVec 32) (n : Fin 50000) (k : Fin 128) :
    nbrMean x ei n k = zero + ∑ e ∈ Finset.univ.filter (fun e : Fin 800000 => (dst ei e).toInt = (n.val : Int)),
      x (ix2 (pick (src ei e)) k) * degInv ei (pick (dst ei e)) := by
  unfold nbrMean into; rfl

attribute [irreducible] into deg degInv nbrSum nbrMean

/-- The sum-then-scale layer at node `n`, output feature `c`. -/
theorem sumThenScale_apply (x : SX.Idx → EReal) (ei : SE.Idx → BitVec 32) (W : SW.Idx → EReal) (b : SB.Idx → EReal)
    (n : Fin 50000) (c : Fin 128) :
    sumThenScale x ei W b (ix2 n c)
      = max ((∑ k : Fin 128, (x (ix2 n k) - nbrSum x ei n k * degInv ei n) * W (ix2 c k)) + b (ix1 c)) zero := by
  unfold sumThenScale layer; rfl

/-- The scale-then-sum layer at node `n`, output feature `c`. -/
theorem scaleThenSum_apply (x : SX.Idx → EReal) (ei : SE.Idx → BitVec 32) (W : SW.Idx → EReal) (b : SB.Idx → EReal)
    (n : Fin 50000) (c : Fin 128) :
    scaleThenSum x ei W b (ix2 n c)
      = max ((∑ k : Fin 128, (x (ix2 n k) - nbrMean x ei n k) * W (ix2 c k)) + b (ix1 c)) zero := by
  unfold scaleThenSum layer; rfl

/-- So the two forms of the layer are one function of real features. -/
theorem sumThenScale_eq_scaleThenSum (x : SX.Idx → EReal) (hx : ∀ i, ∃ r : ℝ, x i = (r : EReal))
    (ei : SE.Idx → BitVec 32) (W : SW.Idx → EReal) (b : SB.Idx → EReal) :
    sumThenScale x ei W b = scaleThenSum x ei W b := by
  funext i
  unfold sumThenScale scaleThenSum
  simp only [nbrSum_mul_degInv x hx]

end HighPass

end
-- ==== Proof.LibScatter1.lean ====
import Idealize.ShloMosaic.Lib.ValueIdx

/-!
  A SCATTER ONTO A VECTOR READ AT AN INDEX.

  An accumulating scatter whose scatter indices are one column of entry numbers — operand `[N]`, updates `[E]`,
  indices `[E, 1]`, update `e` added onto operand entry `idx e` (a segment sum) — is, at the ideal values and at
  operand index `n`, the operand there plus the sum of `u e` over the updates `e` whose entry number is `n`.
  The entry number is read SIGNED and is not clamped: an update whose entry number lies outside `[0, N)` lands
  nowhere and is dropped.

  Every lemma takes an arbitrary dimension record `d` of the right shapes together with the four equations that
  say its lists are those of such a scatter; for a record given by literal lists each equation is `rfl`.
-/

open scoped BigOperators
open Idealize.ShloMosaic Idealize.ShloMosaic.ValueIdx

namespace Scatter1

/-! ## A sum over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Operand `[N]`, updates `[E]`, indices `[E, 1]` -/

variable {N E w : Nat} (d : ScatterDims ⟨1, ![N]⟩ ⟨2, ![E, 1]⟩ ⟨1, ![E]⟩)

/-- Update `e` reads its entry number at `(e, 0)` of the scatter indices. -/
theorem siIdx1 (huw : d.updateWindowDims = []) (hsd : d.scatterDimsToOperandDims = [0]) (hiv : d.indexVectorDim = 1)
    (e : Fin E) (c : Fin d.scatterDimsToOperandDims.length) :
    d.siIdx (ix1 e) c = ix2 e 0 := by
  obtain ⟨uw, iw, sd, iv, wf⟩ := d
  subst huw hsd hiv
  funext b
  match b with
  | ⟨0, _⟩ => rfl
  | ⟨1, _⟩ => exact Fin.ext (by have := c.isLt; simp at this; simpa [ScatterDims.siIdx] using this)

/-- The window of update `e` starts at its entry number, read signed. -/
theorem start1 (huw : d.updateWindowDims = []) (hsd : d.scatterDimsToOperandDims = [0]) (hiv : d.indexVectorDim = 1)
    (idx : IVec ⟨2, ![E, 1]⟩ w) (e : Fin E) :
    d.start (ix1 e) idx 0 = (idx (ix2 e 0)).toInt := by
  have hm : (0 : Fin 1) ∈ d.scatterDimsToOperandDims := by
    rw [hsd]; show (0 : Fin 1) ∈ ([0] : List (Fin 1)); decide
  unfold ScatterDims.start
  rw [dif_pos hm, siIdx1 d huw hsd hiv]

/-- The one operand axis is inserted: the window coordinate there is `0`. -/
theorem window1 (hiw : d.insertedWindowDims = [0]) (j : (⟨1, ![E]⟩ : Shape).Idx) :
    d.window j 0 = 0 := by
  have hm : ¬ (0 : Fin 1) ∈ d.sKept := by
    show ¬ (0 : Fin 1) ∈ Shape.kept _ d.insertedWindowDims
    rw [hiw]
    show ¬ (0 : Fin 1) ∈ (List.finRange 1).filter (fun a => a ∉ ([0] : List (Fin 1)))
    decide
  unfold ScatterDims.window
  rw [dif_neg hm]

/-- Update `e` lands at operand index `n` exactly when its entry number is `n`. -/
theorem resultIdx1 (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  have s0 := start1 d huw hsd hiv idx e
  have w0 := window1 d hiw (ix1 e)
  unfold ScatterDims.resultIdx?
  split
  · rename_i h
    constructor
    · intro he
      have hfun := Option.some.inj he
      have h0 : (d.start (ix1 e) idx 0 + d.window (ix1 e) 0).toNat = n.val :=
        congrArg Fin.val (congrFun hfun 0)
      have hh := (h 0).1
      rw [s0, w0] at h0 hh
      omega
    · intro hn
      congr 1
      funext a
      match a with
      | ⟨0, _⟩ =>
        exact Fin.ext (by
          show (d.start (ix1 e) idx 0 + d.window (ix1 e) 0).toNat = n.val
          rw [s0, w0]; omega)
  · rename_i h
    constructor
    · intro he; exact absurd he (by simp)
    · intro hn
      exfalso; apply h
      intro a
      match a with
      | ⟨0, _⟩ =>
        show 0 ≤ d.start (ix1 e) idx 0 + d.window (ix1 e) 0
          ∧ d.start (ix1 e) idx 0 + d.window (ix1 e) 0 < (N : Int)
        rw [s0, w0]; have := n.isLt; omega

/-- THE SCATTER ONTO A VECTOR AT AN INDEX: the operand at `n` plus the sum of `u e` over the updates `e` whose
    entry number, read signed, is `n`. -/
theorem hostScatterAdd_rows1 (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (u : (⟨1, ![E]⟩ : Shape).Idx → EReal) (n : Fin N) :
    Ideal.hostScatterAdd d x idx u (ix1 n)
      = x (ix1 n) + ∑ e ∈ Finset.univ.filter (fun e : Fin E => (idx (ix2 e 0)).toInt = (n.val : Int)), u (ix1 e) := by
  unfold Ideal.hostScatterAdd
  congr 1
  rw [Finset.sum_filter, Finset.sum_filter, sum_idx1]
  refine Finset.sum_congr rfl fun e _ => ?_
  simp only [resultIdx1 d huw hiw hsd hiv idx e]

end Scatter1
-- ==== Proof.LibGatherRows.lean ====
import Idealize.ShloMosaic.Lib.ValueIdx

/-!
  A ROW GATHER READ AT AN INDEX.

  A gather whose start indices are one column of row numbers — operand `[N, J]`, start indices `[E, 1]`, result
  `[E, J]`, result row `e` a copy of operand row `idx e` — is, at result index `(e, c)`, the operand at
  `(r, c)` where `r` is the row number `idx (e, 0)` read SIGNED and CLAMPED into `[0, N - 1]`: a negative row
  number reads row `0`, one that is `N` or more reads row `N - 1`. The same for a rank-1 operand `[N]` with
  result `[E]`: result entry `e` is the operand at the clamped `idx (e, 0)`.

  Every lemma takes an arbitrary dimension record `d` of the right shapes together with the equations that say
  its lists are those of a row gather; for a record given by literal lists each equation is `rfl`.
-/

open Idealize.ShloMosaic Idealize.ShloMosaic.ValueIdx

namespace GatherRows

/-! ## Rank 2: operand `[N, J]`, start indices `[E, 1]`, result `[E, J]` -/

section Rank2

variable {α : Type} {N J E w : Nat} (d : GatherDims ⟨2, ![N, J]⟩ ⟨2, ![E, 1]⟩ ⟨2, ![E, J]⟩)

/-- Result index `(e, c)` reads its row number at `(e, 0)` of the start indices. -/
theorem siIdx2 (hod : d.offsetDims = [1]) (hsm : d.startIndexMap = [0]) (hiv : d.indexVectorDim = 1)
    (e : Fin E) (c : Fin J) (k : Fin d.startIndexMap.length) :
    d.siIdx (ix2 e c) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- On the row axis the slice of result index `(e, c)` starts at its row number, read signed and clamped into
    `[0, N - 1]`. -/
theorem start2_row (hod : d.offsetDims = [1]) (hsm : d.startIndexMap = [0]) (hiv : d.indexVectorDim = 1)
    (hss : d.sliceSizes = ![1, J]) (idx : IVec ⟨2, ![E, 1]⟩ w) (e : Fin E) (c : Fin J) :
    d.start (ix2 e c) idx 0 = min (idx (ix2 e 0)).toInt.toNat (N - 1) := by
  have hm : (0 : Fin 2) ∈ d.startIndexMap := by
    rw [hsm]; show (0 : Fin 2) ∈ ([0] : List (Fin 2)); decide
  unfold GatherDims.start
  rw [dif_pos hm, siIdx2 d hod hsm hiv, hss]
  rfl

/-- On the column axis the slice starts at `0`. -/
theorem start2_col (hsm : d.startIndexMap = [0]) (idx : IVec ⟨2, ![E, 1]⟩ w) (j : (⟨2, ![E, J]⟩ : Shape).Idx) :
    d.start j idx 1 = 0 := by
  have hm : ¬ (1 : Fin 2) ∈ d.startIndexMap := by
    rw [hsm]; show ¬ (1 : Fin 2) ∈ ([0] : List (Fin 2)); decide
  unfold GatherDims.start
  rw [dif_neg hm]

/-- The offset coordinate on the column axis is the result's column. -/
theorem offCoord2_col (hod : d.offsetDims = [1]) (hcd : d.collapsedSliceDims = [0])
    (hob : d.operandBatchingDims = []) (e : Fin E) (c : Fin J) :
    d.offCoord (ix2 e c) 1 = c.val := by
  obtain ⟨od, cd, ob, sb, sm, iv, ss, wf⟩ := d
  subst hod hcd hob
  rfl

/-- THE ROW GATHER AT AN INDEX, rank 2: the operand at `(r, c)`, `r` the row number `idx (e, 0)` read signed
    and clamped into `[0, N - 1]`. -/
theorem gather_rows2 (hN : 0 < N) (hod : d.offsetDims = [1]) (hcd : d.collapsedSliceDims = [0])
    (hob : d.operandBatchingDims = []) (hsm : d.startIndexMap = [0]) (hiv : d.indexVectorDim = 1)
    (hss : d.sliceSizes = ![1, J])
    (x : (⟨2, ![N, J]⟩ : Shape).Idx → α) (idx : IVec ⟨2, ![E, 1]⟩ w) (e : Fin E) (c : Fin J) :
    Host.gather d x idx (ix2 e c)
      = x (ix2 ⟨min (idx (ix2 e 0)).toInt.toNat (N - 1), by omega⟩ c) := by
  have hnb : ∀ a : Fin 2, a ∉ d.operandBatchingDims := by
    intro a; rw [hob]; exact List.not_mem_nil
  unfold Host.gather
  congr 1
  funext a
  refine Fin.ext ?_
  match a with
  | ⟨0, _⟩ =>
    show d.start (ix2 e c) idx 0 + d.batchCoord (ix2 e c) 0 + d.offCoord (ix2 e c) 0 = _
    rw [d.batchCoord_eq_zero _ _ (hnb 0),
      d.offCoord_eq_zero _ _ (fun h => ((d.mem_sKept _).mp h).1 (by rw [hcd]; exact List.mem_singleton.mpr rfl)),
      start2_row d hod hsm hiv hss]
    rfl
  | ⟨1, _⟩ =>
    show d.start (ix2 e c) idx 1 + d.batchCoord (ix2 e c) 1 + d.offCoord (ix2 e c) 1 = c.val
    rw [d.batchCoord_eq_zero _ _ (hnb 1), start2_col d hsm, offCoord2_col d hod hcd hob]
    omega

end Rank2

/-! ## Rank 1: operand `[N]`, start indices `[E, 1]`, result `[E]` -/

section Rank1

variable {α : Type} {N E w : Nat} (d : GatherDims ⟨1, ![N]⟩ ⟨2, ![E, 1]⟩ ⟨1, ![E]⟩)

/-- Result index `e` reads its row number at `(e, 0)` of the start indices. -/
theorem siIdx1 (hod : d.offsetDims = []) (hsm : d.startIndexMap = [0]) (hiv : d.indexVectorDim = 1)
    (e : Fin E) (k : Fin d.startIndexMap.length) :
    d.siIdx (ix1 e) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- The slice of result index `e` starts at its row number, read signed and clamped into `[0, N - 1]`. -/
theorem start1 (hod : d.offsetDims = []) (hsm : d.startIndexMap = [0]) (hiv : d.indexVectorDim = 1)
    (hss : d.sliceSizes = ![1]) (idx : IVec ⟨2, ![E, 1]⟩ w) (e : Fin E) :
    d.start (ix1 e) idx 0 = min (idx (ix2 e 0)).toInt.toNat (N - 1) := by
  have hm : (0 : Fin 1) ∈ d.startIndexMap := by
    rw [hsm]; show (0 : Fin 1) ∈ ([0] : List (Fin 1)); decide
  unfold GatherDims.start
  rw [dif_pos hm, siIdx1 d hod hsm hiv, hss]
  rfl

/-- THE ROW GATHER AT AN INDEX, rank 1: the operand at the row number `idx (e, 0)` read signed and clamped into
    `[0, N - 1]`. -/
theorem gather_rows1 (hN : 0 < N) (hod : d.offsetDims = []) (hcd : d.collapsedSliceDims = [0])
    (hob : d.operandBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  congr 1
  funext a
  obtain rfl : a = 0 := Subsingleton.elim _ _
  refine Fin.ext ?_
  show d.start (ix1 e) idx 0 + d.batchCoord (ix1 e) 0 + d.offCoord (ix1 e) 0 = _
  rw [d.batchCoord_eq_zero _ _ (by rw [hob]; exact List.not_mem_nil),
    d.offCoord_eq_zero _ _ (fun h => ((d.mem_sKept _).mp h).1 (by rw [hcd]; exact List.mem_singleton.mpr rfl)),
    start1 d hod hsm hiv hss]
  rfl

end Rank1

end GatherRows
-- ==== Proof.LibHostScatterIdeal.lean ====
import Idealize.ShloMosaic.PureOps.Ideal

/-!
  THE HOST'S ACCUMULATING SCATTER AT THE IDEAL VALUES, WITHOUT OPENING IT.

  The host program's accumulating float scatter `Host.scatterAdd d x idx upd` is, at the ideal values, the exact
  function `Ideal.hostScatterAdd d x idx upd`: each operand element plus the sum of the update elements that land on it.
  Both steps of this identification are definitional, but at a full-size update array (hundreds of thousands of
  updates) a goal must never be asked to see that by unfolding: the exact function's body is an extended-real sum over
  every update index. So the first step is stated for an ARBITRARY float instance, where the operation is a field of
  an unknown structure and nothing can unfold, and the second is the instance's own equation; a proof rewrites with
  this lemma as a whole and then reads the result with a lemma about `Ideal.hostScatterAdd` (a segment sum read at an
  index, say).
-/

namespace Idealize.ShloMosaic

/-- The host's accumulating scatter is the float instance's `hostScatterAdd` at the single-device schedule, at any
    instance. -/
theorem Host.scatterAdd_eq_hostScatterAdd {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- At the ideal values it is the exact accumulating scatter. -/
theorem Host.scatterAdd_ideal {s si u : Shape} {φ : FTy} {w : Nat}
    (d : ScatterDims s si u) (x : FVec Ideal s φ) (idx : IVec si w) (upd : FVec Ideal u φ) :
    Host.scatterAdd d x idx upd = Ideal.hostScatterAdd d x idx upd :=
  (Host.scatterAdd_eq_hostScatterAdd d x idx upd).trans (Ideal.hostScatterAdd_def d .single x idx upd)

end Idealize.ShloMosaic
-- ==== Proof.RefStages.lean ====
/-
  The reference program's index words, degrees and gathers, as the quantities of the specification.

  Reading the reference's host operations at an index: the two rows of the edge array are the source and destination
  words; the degree vector is a segment sum of ones over the destination words, so at node `n` it is `deg n`; the
  `where (deg > 0, 1 / deg, 0)` vector is `degInv n`; a row gather of the features by the wrapped source words reads
  row `pick (src e)`; and the per-edge factor is `degInv` gathered by the wrapped destination words,
  `degInv (pick (dst e))`.
-/
import proofs.«133606_j46377056862934_2_alg».proof.Proof.RefReadP
import proofs.«133606_j46377056862934_2_alg».proof.Proof.Spec
import proofs.«133606_j46377056862934_2_alg».proof.Proof.LibScatter1
import proofs.«133606_j46377056862934_2_alg».proof.Proof.LibGatherRows
import proofs.«133606_j46377056862934_2_alg».proof.Proof.LibHostScatterIdeal

noncomputable section

open scoped BigOperators
open Idealize.ShloMosaic Idealize.ShloMosaic.ValueIdx
open Cert.ReferenceIdeal Cert.ReferenceIdeal.Gen Cert.ReferenceIdeal.ReadP

namespace HighPass.Ref

variable (x0 : (⟨S50000x128, .f32⟩ : BufTy).Contents (Elt Ideal)) (x1 : (⟨S2x800000, .i32⟩ : BufTy).Contents (Elt Ideal))

/-! ## The edge words -/

/-- Row 0 of the edge array, flattened: the source words. -/
theorem srcWord (e : Fin 800000) : val_main_v1 (F := Ideal) x1 (ix1 e) = src x1 e := by
  rw [val_main_v1_apply, val_main_v0_apply]
  show x1 _ = x1 (ix2 0 e)
  refine congrArg x1 (funext fun a => Fin.ext ?_)
  match a with
  | ⟨0, _⟩ => rfl
  | ⟨1, _⟩ => exact Nat.mod_eq_of_lt e.isLt

/-- Row 1 of the edge array, flattened: the destination words. -/
theorem dstWord (e : Fin 800000) : val_main_v3 (F := Ideal) x1 (ix1 e) = dst x1 e := by
  rw [val_main_v3_apply, val_main_v2_apply]
  show x1 _ = x1 (ix2 1 e)
  refine congrArg x1 (funext fun a => Fin.ext ?_)
  match a with
  | ⟨0, _⟩ => rfl
  | ⟨1, _⟩ => exact Nat.mod_eq_of_lt e.isLt

/-- The scatter indices of the degree count are the destination words. -/
theorem dstCol6 (e : Fin 800000) : val_main_v6 (F := Ideal) x1 (ix2 e 0) = dst x1 e := by
  have h : idx_main_v6 (ix2 e (0 : Fin 1)) = ix1 e := funext fun a => by match a with | ⟨0, _⟩ => rfl
  rw [val_main_v6_apply, h, dstWord]

/-- The scatter indices of the neighbour sum are the destination words. -/
theorem dstCol31 (e : Fin 800000) : val_main_v31 (F := Ideal) x1 (ix2 e 0) = dst x1 e := by
  have h : idx_main_v31 (ix2 e (0 : Fin 1)) = ix1 e := funext fun a => by match a with | ⟨0, _⟩ => rfl
  rw [val_main_v31_apply, h, dstWord]

/-- The wrapped source word at entry `e`. -/
theorem wrapSrc1 (e : Fin 800000) : val_main_v24 (F := Ideal) x1 (ix1 e) = wrap (src x1 e) := by
  rw [val_main_v24_apply, val_main_v21_apply, val_main_v23_apply, val_main_v20_apply, val_main_v22_apply,
    val_main_c_5_apply, val_main_c_6_apply, srcWord]
  rfl

/-- The start indices of the feature gather are the wrapped source words. -/
theorem wrapSrc (e : Fin 800000) : val_main_v25 (F := Ideal) x1 (ix2 e 0) = wrap (src x1 e) := by
  have h : idx_main_v25 (ix2 e (0 : Fin 1)) = ix1 e := funext fun a => by match a with | ⟨0, _⟩ => rfl
  rw [val_main_v25_apply, h, wrapSrc1]

/-- The wrapped destination word at entry `e`. -/
theorem wrapDst1 (e : Fin 800000) : val_main_v17 (F := Ideal) x1 (ix1 e) = wrap (dst x1 e) := by
  rw [val_main_v17_apply, val_main_v14_apply, val_main_v16_apply, val_main_v13_apply, val_main_v15_apply,
    val_main_c_apply, val_main_c_4_apply, dstWord]
  rfl

/-- The start indices of the reciprocal-degree gather are the wrapped destination words. -/
theorem wrapDst (e : Fin 800000) : val_main_v18 (F := Ideal) x1 (ix2 e 0) = wrap (dst x1 e) := by
  have h : idx_main_v18 (ix2 e (0 : Fin 1)) = ix1 e := funext fun a => by match a with | ⟨0, _⟩ => rfl
  rw [val_main_v18_apply, h, wrapDst1]

/-! ## The degree and its reciprocal -/

/-- The segment sum of ones over the destination words is the in-degree. -/
theorem deg_eq (n : Fin 50000) : val_main_v7 (F := Ideal) x1 (ix1 n) = deg x1 n := by
  have h5 : val_main_v5 (F := Ideal) (ix1 n) = zero := by
    rw [val_main_v5_apply, val_main_cst_0_apply]; rfl
  have hS : ∑ e ∈ Finset.univ.filter (fun e : Fin 800000 => (val_main_v6 (F := Ideal) x1 (ix2 e 0)).toInt = (n.val : Int)),
        val_main_v4 (F := Ideal) (ix1 e)
      = ∑ _e ∈ Finset.univ.filter (fun e : Fin 800000 => (dst x1 e).toInt = (n.val : Int)), one :=
    Finset.sum_congr (Finset.filter_congr fun e _ => by rw [dstCol6]) fun e _ => by
      rw [val_main_v4_apply, val_main_cst_apply]; rfl
  have hv : val_main_v7 (F := Ideal) x1
      = Ideal.hostScatterAdd scatter_S50000_S800000x1_S800000_n_0_0_1 (val_main_v5 (F := Ideal))
          (val_main_v6 (F := Ideal) x1) (val_main_v4 (F := Ideal)) :=
    Host.scatterAdd_ideal _ _ _ _
  rw [hv, Scatter1.hostScatterAdd_rows1 scatter_S50000_S800000x1_S800000_n_0_0_1 rfl rfl rfl rfl, h5, hS, deg_def]

/-- `where (deg > 0, 1 / deg, 0)` is the reciprocal degree. -/
theorem degInv_eq (n : Fin 50000) : val_main_v12 (F := Ideal) x1 (ix1 n) = degInv x1 n := by
  rw [val_main_v12_apply, val_main_v9_apply, val_main_v11_apply, val_main_call0_v1_apply, val_main_call0_v0_apply,
    val_main_cst_3_apply, val_main_v8_apply, val_main_cst_1_apply, val_main_v10_apply, val_main_cst_2_apply, deg_eq]
  rw [degInv_def, Ideal.ofBits_def, Ideal.ofBits_def, Ideal.hostDivf_def]
  rfl

/-! ## The two gathers -/

/-- The feature gather reads the row the wrapped source word picks. -/
theorem gatherX (e : Fin 800000) (k : Fin 128) :
    val_main_v26 (F := Ideal) x0 x1 (ix2 e k) = x0 (ix2 (pick (src x1 e)) k) := by
  unfold val_main_v26
  rw [GatherRows.gather_rows2 gather_S50000x128_S800000x1_S800000x128_1_0_n_n_0_1_1128 (by norm_num) rfl rfl rfl rfl rfl rfl]
  refine congrArg x0 (congrArg (fun r => ix2 r k) (Fin.ext ?_))
  show min (val_main_v25 (F := Ideal) x1 (ix2 e 0)).toInt.toNat (50000 - 1) = min (wrap (src x1 e)).toInt.toNat (50000 - 1)
  rw [wrapSrc]

/-- The per-edge factor is the reciprocal degree of the node the wrapped destination word picks. -/
theorem norm_eq (e : Fin 800000) : val_main_v19 (F := Ideal) x1 (ix1 e) = degInv x1 (pick (dst x1 e)) := by
  unfold val_main_v19
  rw [GatherRows.gather_rows1 gather_S50000_S800000x1_S800000_n_0_n_n_0_1_1 (by norm_num) rfl rfl rfl rfl rfl rfl]
  refine (congrArg (fun r => val_main_v12 (F := Ideal) x1 (ix1 r)) (Fin.ext ?_ : _ = pick (dst x1 e))).trans (degInv_eq x1 _)
  show min (val_main_v18 (F := Ideal) x1 (ix2 e 0)).toInt.toNat (50000 - 1) = min (wrap (dst x1 e)).toInt.toNat (50000 - 1)
  rw [wrapDst]

end HighPass.Ref

end
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.RefTail.lean ====
/-
  The reference program's neighbour mean and dense tail: the reference is `scaleThenSum`.

  The segment sum, over the destination words, of the gathered feature rows each scaled by its edge's factor is
  `nbrMean`; the dense tail (matrix product with the transposed weights, bias, maximum with zero) is `layer`. So the
  reference's result array is `scaleThenSum` of its four arguments.
-/
import proofs.«133606_j46377056862934_2_alg».proof.Proof.RefStages
import proofs.«133606_j46377056862934_2_alg».proof.Proof.LibScatterRows
import proofs.«133606_j46377056862934_2_alg».proof.Proof.LibHostScatterIdeal

noncomputable section

open scoped BigOperators
open Idealize.ShloMosaic Idealize.ShloMosaic.ValueIdx
open Cert.ReferenceIdeal Cert.ReferenceIdeal.Gen Cert.ReferenceIdeal.ReadP

namespace HighPass.Ref

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))

/-- The scaled gathered row at `(e, k)`. -/
theorem msg_eq (e : Fin 800000) (k : Fin 128) :
    val_main_v29 (F := Ideal) x0 x1 (ix2 e k) = x0 (ix2 (pick (src x1 e)) k) * degInv x1 (pick (dst x1 e)) := by
  have h27 : idx_main_v27 (idx_main_v28 (ix2 e k)) = ix1 e := funext fun a => by match a with | ⟨0, _⟩ => rfl
  rw [val_main_v29_apply, gatherX, val_main_v28_apply, val_main_v27_apply, h27, norm_eq, Ideal.mulf_def]

/-- The segment sum, over the destination words, of the UNSCALED gathered rows is the neighbour sum (the array the
    kernel's host side prepares for its region). -/
theorem sums_eq (n : Fin 50000) (k : Fin 128) :
    Host.scatterAdd (F := Ideal) (φ := .f32) scatter_S50000x128_S800000x1_S800000x128_1_0_0_1 (val_main_v30 (F := Ideal))
        (val_main_v31 (F := Ideal) x1) (val_main_v26 (F := Ideal) x0 x1) (ix2 n k)
      = nbrSum x0 x1 n k := by
  have h0 : val_main_v30 (F := Ideal) (ix2 n k) = zero := by
    rw [val_main_v30_apply, val_main_cst_7_apply]; rfl
  have hS : ∑ e ∈ Finset.univ.filter (fun e : Fin 800000 => (val_main_v31 (F := Ideal) x1 (ix2 e 0)).toInt = (n.val : Int)),
        val_main_v26 (F := Ideal) x0 x1 (ix2 e k)
      = ∑ e ∈ Finset.univ.filter (fun e : Fin 800000 => (dst x1 e).toInt = (n.val : Int)),
          x0 (ix2 (pick (src x1 e)) k) :=
    Finset.sum_congr (Finset.filter_congr fun e _ => by rw [dstCol31]) fun e _ => gatherX x0 x1 e k
  rw [Host.scatterAdd_ideal,
    ScatterRows.hostScatterAdd_rows2 scatter_S50000x128_S800000x1_S800000x128_1_0_0_1 rfl rfl rfl rfl, h0, hS,
    nbrSum_def]

/-- The segment sum of the scaled gathered rows is the neighbour mean. -/
theorem mean_eq (n : Fin 50000) (k : Fin 128) : val_main_v32 (F := Ideal) x0 x1 (ix2 n k) = nbrMean x0 x1 n k := by
  have h0 : val_main_v30 (F := Ideal) (ix2 n k) = zero := by
    rw [val_main_v30_apply, val_main_cst_7_apply]; rfl
  have hS : ∑ e ∈ Finset.univ.filter (fun e : Fin 800000 => (val_main_v31 (F := Ideal) x1 (ix2 e 0)).toInt = (n.val : Int)),
        val_main_v29 (F := Ideal) x0 x1 (ix2 e k)
      = ∑ e ∈ Finset.univ.filter (fun e : Fin 800000 => (dst x1 e).toInt = (n.val : Int)),
          x0 (ix2 (pick (src x1 e)) k) * degInv x1 (pick (dst x1 e)) :=
    Finset.sum_congr (Finset.filter_congr fun e _ => by rw [dstCol31]) fun e _ => msg_eq x0 x1 e k
  have hv : val_main_v32 (F := Ideal) x0 x1
      = Ideal.hostScatterAdd scatter_S50000x128_S800000x1_S800000x128_1_0_0_1 (val_main_v30 (F := Ideal))
          (val_main_v31 (F := Ideal) x1) (val_main_v29 (F := Ideal) x0 x1) :=
    Host.scatterAdd_ideal _ _ _ _
  rw [hv, ScatterRows.hostScatterAdd_rows2 scatter_S50000x128_S800000x1_S800000x128_1_0_0_1 rfl rfl rfl rfl, h0, hS, nbrMean_def]

/-- The hidden value at `(n, k)`. -/
theorem hidden_eq (n : Fin 50000) (k : Fin 128) :
    val_main_v33 (F := Ideal) x0 x1 (ix2 n k) = x0 (ix2 n k) - nbrMean x0 x1 n k := by
  rw [val_main_v33_apply, mean_eq, Ideal.subf_def]

/-- THE REFERENCE IS `scaleThenSum`. -/
theorem reference_eq : val_main_v39 (F := Ideal) x0 x1 x2 x3 = scaleThenSum x0 x1 x2 x3 := by
  funext i
  obtain ⟨n, c, rfl⟩ : ∃ (n : Fin 50000) (c : Fin 128), i = ix2 n c := ⟨i 0, i 1, eq_ix2 i⟩
  have el : ∀ k : Fin 128, lidx_main_v35 (ix2 n c) k = ix2 n k := fun k =>
    funext fun a => by match a with | ⟨0, _⟩ => rfl | ⟨1, _⟩ => rfl
  have er : ∀ k : Fin 128, idx_main_v34 (ridx_main_v35 (ix2 n c) k) = ix2 c k := fun k =>
    funext fun a => by match a with | ⟨0, _⟩ => rfl | ⟨1, _⟩ => rfl
  have eb : idx_main_v36 (idx_main_v37 (ix2 n c)) = ix1 c :=
    funext fun a => by match a with | ⟨0, _⟩ => rfl
  have hsum : val_main_v35 (F := Ideal) x0 x1 x2 (ix2 n c)
      = ∑ k : Fin 128, (x0 (ix2 n k) - nbrMean x0 x1 n k) * x2 (ix2 c k) := by
    rw [val_main_v35_apply]
    refine Finset.sum_congr rfl fun k _ => ?_
    rw [el, hidden_eq, val_main_v34_apply, er]
  have hbias : val_main_v37 (F := Ideal) x3 (ix2 n c) = x3 (ix1 c) := by
    rw [val_main_v37_apply, val_main_v36_apply, eb]
  rw [val_main_v39_apply, val_main_v38_apply, hsum, hbias, val_main_call1_v0_apply, val_main_call1_cst_apply,
    scaleThenSum_apply, Ideal.maximumf_def, Ideal.addf_def, Ideal.ofBits_def]
  rfl

end HighPass.Ref

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KernelPayload.lean ====
/-
  What the kernel body stores, at one entry of a block.

  The body loads a block of 5000 rows of the features `x`, the same rows of the neighbour sums `s`, the column of the
  rows' reciprocal degrees `d`, the whole transposed weight matrix `wt` and the bias row `b`, and stores
  `max ((x - s · d) · wt + b, 0)`: the reciprocal-degree column is copied along the 128 features, the difference is
  rounded to bf16 (the identity on the extended reals), multiplied into a zero accumulator by the matrix unit, the bias
  row is copied down the 5000 rows and added, and the result is clamped below at zero. At row `p`, column `q` this is
  `max (∑ k, (x (p, k) - s (p, k) · d (p, 0)) · wt (k, q) + b (0, q), 0)`.
-/
import proofs.«133606_j46377056862934_2_alg».proof.Proof.Gen.KernelIdeal.Skeleton
import proofs.«133606_j46377056862934_2_alg».proof.Proof.Spec
import proofs.«133606_j46377056862934_2_alg».proof.Proof.LibDotRows
import proofs.«133606_j46377056862934_2_alg».proof.Proof.LibLayout
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx
open Cert.KernelIdeal Cert.KernelIdeal.Gen

namespace HighPass.Kernel

/-- The stored value at row `p`, column `q` of the block. -/
theorem payload_apply (v0 : Vec Ideal S5000x1 .f32) (v4 : Vec Ideal S5000x128 .f32) (v5 : Vec Ideal S5000x128 .f32)
    (v10 : Vec Ideal S128x128 .bf16) (v13 : Vec Ideal S1x128 .f32) (p : Fin 5000) (q : Fin 128) :
    k0_pay1 (F := Ideal) v0 v4 v5 v10 v13 (ix2 p q)
      = max ((∑ k : Fin 128, (v4 (ix2 p k) - v5 (ix2 p k) * v0 (ix2 p 0)) * v10 (ix2 k q)) + v13 (ix2 0 q)) zero := by
  unfold k0_pay1
  show max (FloatOps.matmul (F := Ideal) dot_S5000x128_S128x128_S5000x128_1_0_0_1_n_n none _ _
      (constant (F := Ideal) S5000x128 .f32 0x00000000#32) (ix2 p q)
      + broadcastTo S5000x128 (shapeCast S1x128 v13 shapeCasts_S1x128_S1x128) broadcasts_S1x128_S5000x128 (ix2 p q))
      (Ideal.ofBits .f32 0x00000000#32) = _
  rw [matmul_zero_rows _ none rfl rfl (fun _ _ => rfl) (fun _ _ => rfl) (fun _ _ => rfl) (fun _ _ => rfl),
    broadcastTo_1b_ab_apply]
  simp only [shapeCast_self]
  refine congrArg (fun s => max (s + v13 (ix2 0 q)) zero) (Finset.sum_congr rfl fun k _ => ?_)
  show (v4 (ix2 p k) - v5 (ix2 p k) * broadcastTo S5000x128 v0 broadcasts_S5000x1_S5000x128 (ix2 p k)) * v10 (ix2 k q) = _
  rw [broadcastTo_a1_ab_apply]

end HighPass.Kernel

end
-- ==== Proof.KernelHost.lean ====
/-
  What the kernel's region finds in the arrays the host wrote for it.

  Before the one region the host computes, from the four arguments, the arrays four of the region's windows stage: the
  neighbour sums (a segment sum over the destination words of the feature rows gathered by the wrapped source words),
  the column of reciprocal degrees, the transposed weight matrix rounded to bf16 (the same numbers on the extended
  reals), and the bias as one row. These are the very operations the reference performs on the same arguments up to
  that point, so each array is stated as the reference's stage of the arguments, and then read at an index with the
  stage lemmas: the neighbour sum `nbrSum n k`, the reciprocal degree `degInv n`, the weight `W (q, k)` at `(k, q)`, the
  bias `b q` at `(0, q)`.
-/
import proofs.«133606_j46377056862934_2_alg».proof.Proof.Gen.KernelIdeal.Frame
import proofs.«133606_j46377056862934_2_alg».proof.Proof.RefTail
import proofs.«133606_j46377056862934_2_alg».proof.Proof.LibLayout
import Idealize.ShloMosaic.Lib.StableHlo.Run
import Idealize.ShloMosaic.Lib.ValueLayout

noncomputable section

open scoped BigOperators
open Idealize.ShloMosaic Idealize.ShloMosaic.TcCoe Idealize.ShloMosaic.ValueIdx Idealize.ShloMosaic.StableHlo Idealize.SL.Sem
open Cert.KernelIdeal Cert.KernelIdeal.Gen

namespace HighPass.Kernel

variable (m : (ℓ : Loc nD τ sig) → Buf (Elt Ideal) ℓ) (c : Dev nD)

/-! ## The four arguments as launched on core `c` -/

/-- The node features. -/
abbrev argX : (⟨S50000x128, .f32⟩ : BufTy).Contents (Elt Ideal) := m ((c.tc : Thread nD τ).loc main_arg0)
/-- The edge words. -/
abbrev argE : (⟨S2x800000, .i32⟩ : BufTy).Contents (Elt Ideal) := m ((c.tc : Thread nD τ).loc main_arg1)
/-- The weights. -/
abbrev argW : (⟨S128x128, .f32⟩ : BufTy).Contents (Elt Ideal) := m ((c.tc : Thread nD τ).loc main_arg2)
/-- The bias. -/
abbrev argB : (⟨S128, .f32⟩ : BufTy).Contents (Elt Ideal) := m ((c.tc : Thread nD τ).loc main_arg3)

/-! ## The arrays as stages of the arguments -/

set_option maxHeartbeats 2000000 in
/-- The neighbour-sum array: the segment sum, over the destination words, of the gathered feature rows. -/
theorem V_sums : (V m c main_v22 : (⟨S50000x128, .f32⟩ : BufTy).Contents (Elt Ideal))
    = Host.scatterAdd (F := Ideal) (φ := .f32) Cert.ReferenceIdeal.scatter_S50000x128_S800000x1_S800000x128_1_0_0_1
        (Cert.ReferenceIdeal.ReadP.val_main_v30 (F := Ideal))
        (Cert.ReferenceIdeal.ReadP.val_main_v31 (F := Ideal) (argE m c))
        (Cert.ReferenceIdeal.ReadP.val_main_v26 (F := Ideal) (argX m c) (argE m c)) := by
  dsimp only [V]
  simp only [hostOps0, hostOps0_1, hostOps0_2, List.flatten_cons, List.flatten_nil, List.append_nil, List.cons_append,
    List.nil_append]
  after_results_simp
  rfl

/-- Contents carried through the typed references of the `where` call and then laid out as a column: the carrying is
    along type equations that hold by computation, so it is the identity. -/
theorem recip_transport (A : (⟨S50000, .i1⟩ : BufTy).Contents (Elt Ideal))
    (B C : (⟨S50000, .f32⟩ : BufTy).Contents (Elt Ideal)) :
    ((fun i => shapeCast main_v25.ty.shape ((TRef.of (T := ⟨S50000, .f32⟩) main_v12).toBuf (Val := Elt Ideal)
        (select ((TRef.of (T := ⟨S50000, .i1⟩) main_v9).ofBuf (Val := Elt Ideal) A)
          ((TRef.of (T := ⟨S50000, .f32⟩) main_v11).ofBuf (Val := Elt Ideal) B) C)) shapeCasts_S50000_S50000x1 i)
      : (⟨S50000x1, .f32⟩ : BufTy).Contents (Elt Ideal))
    = shapeCast S50000x1 (select A B C) shapeCasts_S50000_S50000x1 := rfl

set_option maxHeartbeats 2000000 in
/-- The reciprocal-degree column: the `where` vector as one column. -/
theorem V_recip : (V m c main_v25 : (⟨S50000x1, .f32⟩ : BufTy).Contents (Elt Ideal))
    = shapeCast S50000x1 (Cert.ReferenceIdeal.ReadP.val_main_v12 (F := Ideal) (argE m c)) shapeCasts_S50000_S50000x1 := by
  dsimp only [V]
  simp only [hostOps0, hostOps0_1, hostOps0_2, List.flatten_cons, List.flatten_nil, List.append_nil, List.cons_append,
    List.nil_append]
  after_results_simp
  refine (recip_transport _ _ _).trans (congrArg (fun X => shapeCast S50000x1 X shapeCasts_S50000_S50000x1) ?_)
  show select _ _ _ = select (Cert.ReferenceIdeal.ReadP.val_main_v9 (F := Ideal) (argE m c))
    (Cert.ReferenceIdeal.ReadP.val_main_v11 (F := Ideal) (argE m c)) (Cert.ReferenceIdeal.ReadP.val_main_call0_v1 (F := Ideal))
  refine congr (congr (congrArg select ?_) ?_) ?_
  · show cmpf (F := Ideal) .ogt _ _ = cmpf (F := Ideal) .ogt (Cert.ReferenceIdeal.ReadP.val_main_v7 (F := Ideal) (argE m c))
      (Cert.ReferenceIdeal.ReadP.val_main_v8 (F := Ideal))
    refine congr (congrArg (cmpf (F := Ideal) .ogt) ?_) ?_
    · rfl
    · rfl
  · show Host.divf (F := Ideal) _ _ = Host.divf (F := Ideal) (Cert.ReferenceIdeal.ReadP.val_main_v10 (F := Ideal))
      (Cert.ReferenceIdeal.ReadP.val_main_v7 (F := Ideal) (argE m c))
    refine congr (congrArg (Host.divf (F := Ideal)) ?_) ?_
    · rfl
    · rfl
  · rfl

set_option maxHeartbeats 2000000 in
/-- The weight array: the transposed weights, rounded to bf16. -/
theorem V_weights : (V m c main_v24 : (⟨S128x128, .bf16⟩ : BufTy).Contents (Elt Ideal))
    = truncf (F := Ideal) .bf16 (Cert.ReferenceIdeal.ReadP.val_main_v34 (F := Ideal) (argW m c)) bitsLt_bf16_f32 := by
  dsimp only [V]
  simp only [hostOps0, hostOps0_1, hostOps0_2, List.flatten_cons, List.flatten_nil, List.append_nil, List.cons_append,
    List.nil_append]
  after_results_simp
  rfl

set_option maxHeartbeats 2000000 in
/-- The bias array: the bias vector as one row. -/
theorem V_bias : (V m c main_v26 : (⟨S1x128, .f32⟩ : BufTy).Contents (Elt Ideal))
    = shapeCast S1x128 (argB m c) shapeCasts_S128_S1x128 := by
  dsimp only [V]
  simp only [hostOps0, hostOps0_1, hostOps0_2, List.flatten_cons, List.flatten_nil, List.append_nil, List.cons_append,
    List.nil_append]
  after_results_simp
  rfl

/-! ## Read at an index -/

/-- The neighbour-sum array at `(n, k)`. -/
theorem V_sums_apply (n : Fin 50000) (k : Fin 128) :
    (V m c main_v22 : (⟨S50000x128, .f32⟩ : BufTy).Contents (Elt Ideal)) (ix2 n k) = nbrSum (argX m c) (argE m c) n k := by
  rw [V_sums]
  exact Ref.sums_eq (argX m c) (argE m c) n k

/-- The reciprocal-degree column at row `n`. -/
theorem V_recip_apply (n : Fin 50000) (u : Fin 1) :
    (V m c main_v25 : (⟨S50000x1, .f32⟩ : BufTy).Contents (Elt Ideal)) (ix2 n u) = degInv (argE m c) n := by
  rw [V_recip, shapeCast_a_a1_apply, Ref.degInv_eq]

/-- The weight array at `(k, q)` is the weight `W (q, k)`. -/
theorem V_weights_apply (k q : Fin 128) :
    (V m c main_v24 : (⟨S128x128, .bf16⟩ : BufTy).Contents (Elt Ideal)) (ix2 k q) = argW m c (ix2 q k) := by
  have h : Cert.ReferenceIdeal.ReadP.idx_main_v34 (ix2 k q) = ix2 q k :=
    funext fun a => by match a with | ⟨0, _⟩ => rfl | ⟨1, _⟩ => rfl
  rw [V_weights]
  show Cert.ReferenceIdeal.ReadP.val_main_v34 (F := Ideal) (argW m c) (ix2 k q) = _
  rw [Cert.ReferenceIdeal.ReadP.val_main_v34_apply, h]

/-- The bias row at column `q`. -/
theorem V_bias_apply (u : Fin 1) (q : Fin 128) :
    (V m c main_v26 : (⟨S1x128, .f32⟩ : BufTy).Contents (Elt Ideal)) (ix2 u q) = argB m c (ix1 q) := by
  rw [V_bias, shapeCast_a_1a_apply]

end HighPass.Kernel

end
-- ==== Proof.KernelValue.lean ====
/-
  The kernel's result array is `sumThenScale` of the arguments.

  The region runs the body at ten grid points; point `t` works on rows `5000 t … 5000 t + 4999`: its feature block,
  neighbour-sum block and reciprocal-degree block are those rows of their arrays, the weight matrix and the bias row are
  the same whole arrays at every point, and what it writes back is those rows of the result. So row `p` of point `t`'s
  written block is the layer at node `5000 t + p`, with the mean taken as (sum of neighbours) × (reciprocal degree); the
  ten blocks tile the 50000 rows (node `n` lies in the block of point `n / 5000`), and the array after the run is that
  one function of the four arguments at every index.
-/
import proofs.«133606_j46377056862934_2_alg».proof.Proof.Gen.KernelIdeal.Value
import proofs.«133606_j46377056862934_2_alg».proof.Proof.KernelPayload
import proofs.«133606_j46377056862934_2_alg».proof.Proof.KernelHost

noncomputable section

open scoped BigOperators
open Idealize.ShloMosaic Idealize.ShloMosaic.TcCoe Idealize.ShloMosaic.ValueIdx Idealize.SL.Sem
open Cert.KernelIdeal Cert.KernelIdeal.Gen
open Idealize.ShloMosaic.Pipeline (Dat)

namespace HighPass.Kernel

variable (m : (ℓ : Loc nD τ sig) → Buf (Elt Ideal) ℓ) (ρ : Dev nD → PrngReg)

/-- The layer, sum-then-scale, of the four argument arrays as launched. -/
def result (c : Dev nD) : (⟨S50000x128, .f32⟩ : BufTy).Contents (Elt Ideal) :=
  sumThenScale (argX m c) (argE m c) (argW m c) (argB m c)

theorem origin : (![0, 0] : Fin 2 → Nat) = fun _ => 0 := funext fun a => by fin_cases a <;> rfl

/-- The printed index maps, decided over the ten points: the row-blocked windows sit at block `t` on the row axis and
    block `0` on the column axis, the two whole-array windows at block `(0, 0)`. -/
theorem idx_facts : ∀ t : Fin cfg0.N, t.val < 10
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The windows' arrays by name

  Window `w`'s array is named through the window table; it is the buffer the printed program names. -/

theorem V_win0 (c : Dev nD) :
    (V m c (Pipeline.arrRef spec0 0) : (⟨S50000x128, .f32⟩ : BufTy).Contents (Elt Ideal)) = V m c main_arg0 := rfl
theorem V_win1 (c : Dev nD) :
    (V m c (Pipeline.arrRef spec0 1) : (⟨S50000x128, .f32⟩ : BufTy).Contents (Elt Ideal)) = V m c main_v22 := rfl
theorem V_win2 (c : Dev nD) :
    (V m c (Pipeline.arrRef spec0 2) : (⟨S50000x1, .f32⟩ : BufTy).Contents (Elt Ideal)) = V m c main_v25 := rfl
theorem V_win3 (c : Dev nD) :
    (V m c (Pipeline.arrRef spec0 3) : (⟨S128x128, .bf16⟩ : BufTy).Contents (Elt Ideal)) = V m c main_v24 := rfl
theorem V_win4 (c : Dev nD) :
    (V m c (Pipeline.arrRef spec0 4) : (⟨S1x128, .f32⟩ : BufTy).Contents (Elt Ideal)) = V m c main_v26 := rfl

/-- The features array as the region finds it is the argument as launched. -/
theorem V_features (c : Dev nD) :
    (V m c main_arg0 : (⟨S50000x128, .f32⟩ : BufTy).Contents (Elt Ideal)) = argX m c := V_main_arg0 m c

/-! ## The input blocks at a point -/

/-- Row `p` of point `t`'s feature block is row `5000 t + p` of the features. -/
theorem features_blk (c : Dev nD) (t : Fin cfg0.N) (p : Fin 5000) (k : Fin 128) (r : Fin 50000)
    (hr : r.val = t.val * 5000 + p.val) :
    (iblk m c 0 t : Vec Ideal S5000x128 .f32) (ix2 p k)
      = argX m c (ix2 r k) := by
  obtain ⟨-, e0, e1, -⟩ := idx_facts t
  have hemb : ((cfg0.win 0).blk t).view.emb (ix2 p k) = (ix2 r k : S50000x128.Idx) := by
    funext a; apply Fin.ext
    match a with
    | ⟨0, _⟩ => show win0_0.index t (0 : Fin 2) * 5000 + 1 * p.val = r.val; omega
    | ⟨1, _⟩ => show win0_0.index t (1 : Fin 2) * 128 + 1 * k.val = k.val; omega
  unfold iblk
  rw [View.read_apply, cast_eq, hemb]
  exact (congrFun (V_win0 m c) (ix2 r k)).trans (congrFun (V_features m c) (ix2 r k))

/-- Row `p` of point `t`'s neighbour-sum block is the neighbour sum of node `5000 t + p`. -/
theorem sums_blk (c : Dev nD) (t : Fin cfg0.N) (p : Fin 5000) (k : Fin 128) (r : Fin 50000)
    (hr : r.val = t.val * 5000 + p.val) :
    (iblk m c 1 t : Vec Ideal S5000x128 .f32) (ix2 p k)
      = nbrSum (argX m c) (argE m c) r k := by
  obtain ⟨-, -, -, e0, e1, -⟩ := idx_facts t
  have hemb : ((cfg0.win 1).blk t).view.emb (ix2 p k) = (ix2 r k : S50000x128.Idx) := by
    funext a; apply Fin.ext
    match a with
    | ⟨0, _⟩ => show win0_1.index t (0 : Fin 2) * 5000 + 1 * p.val = r.val; omega
    | ⟨1, _⟩ => show win0_1.index t (1 : Fin 2) * 128 + 1 * k.val = k.val; omega
  unfold iblk
  rw [View.read_apply, cast_eq, hemb]
  exact (congrFun (V_win1 m c) (ix2 r k)).trans (V_sums_apply m c r k)

/-- Row `p` of point `t`'s reciprocal-degree block is the reciprocal degree of node `5000 t + p`. -/
theorem recip_blk (c : Dev nD) (t : Fin cfg0.N) (p : Fin 5000) (r : Fin 50000)
    (hr : r.val = t.val * 5000 + p.val) :
    (iblk m c 2 t : Vec Ideal S5000x1 .f32) (ix2 p 0) = degInv (argE m c) r := by
  obtain ⟨-, -, -, -, -, e0, e1, -⟩ := idx_facts t
  have hemb : ((cfg0.win 2).blk t).view.emb (ix2 p 0) = (ix2 r 0 : S50000x1.Idx) := by
    funext a; apply Fin.ext
    match a with
    | ⟨0, _⟩ => show win0_2.index t (0 : Fin 2) * 5000 + 1 * p.val = r.val; omega
    | ⟨1, _⟩ => show win0_2.index t (1 : Fin 2) * 1 + 1 * 0 = 0; omega
  unfold iblk
  rw [View.read_apply, cast_eq, hemb]
  exact (congrFun (V_win2 m c) (ix2 r 0)).trans (V_recip_apply m c r 0)

/-- Every point's weight block is the whole transposed weight matrix. -/
theorem weights_blk (c : Dev nD) (t : Fin cfg0.N) (k q : Fin 128) :
    (iblk m c 3 t : Vec Ideal S128x128 .bf16) (ix2 k q)
      = argW m c (ix2 q k) := by
  obtain ⟨-, -, -, -, -, -, -, e0, e1, -⟩ := idx_facts t
  have hemb : ((cfg0.win 3).blk t).view.emb (ix2 k q) = (ix2 k q : S128x128.Idx) := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  unfold iblk
  rw [View.read_apply, cast_eq, hemb]
  exact (congrFun (V_win3 m c) (ix2 k q)).trans (V_weights_apply m c k q)

/-- Every point's bias block is the whole bias row. -/
theorem bias_blk (c : Dev nD) (t : Fin cfg0.N) (q : Fin 128) :
    (iblk m c 4 t : Vec Ideal S1x128 .f32) (ix2 0 q)
      = argB m c (ix1 q) := by
  obtain ⟨-, -, -, -, -, -, -, -, -, e0, e1, -⟩ := idx_facts t
  have hemb : ((cfg0.win 4).blk t).view.emb (ix2 0 q) = (ix2 0 q : S1x128.Idx) := by
    funext a; apply Fin.ext
    match a with
    | ⟨0, _⟩ => show win0_4.index t (0 : Fin 2) * 1 + 1 * 0 = 0; omega
    | ⟨1, _⟩ => show win0_4.index t (1 : Fin 2) * 128 + 1 * q.val = q.val; omega
  unfold iblk
  rw [View.read_apply, cast_eq, hemb]
  exact (congrFun (V_win4 m c) (ix2 0 q)).trans (V_bias_apply m c 0 q)

/-! ## What a point writes back -/

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero origin]
  simp only [View.ld_unit_zero (S := S5000x1) origin, View.ld_unit_zero (S := S5000x128) origin,
    View.ld_unit_zero (S := S128x128) origin, View.ld_unit_zero (S := S1x128) origin]
  obtain ⟨ht, -, -, -, -, -, -, -, -, -, -, e0, e1⟩ := idx_facts t
  funext j
  obtain ⟨p, q, rfl⟩ : ∃ (p : Fin 5000) (q : Fin 128), j = ix2 p q := ⟨j 0, j 1, eq_ix2 j⟩
  have hp := p.isLt
  have hemb : ((cfg0.win 5).blk t).view.emb (ix2 p q) = (ix2 (⟨t.val * 5000 + p.val, by omega⟩ : Fin 50000) q : S50000x128.Idx) := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk m c 2 t) (iblk m c 0 t) (iblk m c 1 t) (iblk m c 3 t) (iblk m c 4 t) (ix2 p q)
    = result m c (((cfg0.win 5).blk t).view.emb (ix2 p q))
  rw [hemb]
  refine (payload_apply (iblk m c 2 t) (iblk m c 0 t) (iblk m c 1 t) (iblk m c 3 t) (iblk m c 4 t) p q).trans ?_
  rw [recip_blk m c t p ⟨t.val * 5000 + p.val, by omega⟩ rfl, bias_blk m c t q, result, sumThenScale_apply]
  refine congrArg (fun s => max (s + _) zero) (Finset.sum_congr rfl fun k _ => ?_)
  rw [features_blk m c t p k ⟨t.val * 5000 + p.val, by omega⟩ rfl, sums_blk m c t p k ⟨t.val * 5000 + p.val, by omega⟩ rfl,
    weights_blk m c t k q]

/-! ## The blocks tile the array -/

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v27).slice (win0_5.rect t)).set ↔ _
  rw [View.set_slice_whole, Rect.mem_set_unit]
  exact Iff.rfl

/-- Node `n`'s row lies in the block of point `n / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, -, e0, e1⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e1]
    omega

/-! ## The array after the run, and the run -/

/-- THE ARRAY after the run is `result`. -/
theorem final (c : Dev nD) : (dats m 0 c).arrAt 5 cfg0.N = result m c :=
  (dats m 0 c).arrAt_eq_of_cover 5 (result m c) (fun t _ => flushed_eq m c t) cover

/-- The kernel's run with its result array named: the layer, sum-then-scale, of the arguments. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end HighPass.Kernel

end
-- ==== Proof.lean ====
/-
  The certificate of the high-pass graph layer: a fused `relu ((x - mean of in-neighbours) · Wᵀ + b)` kernel against
  its jnp reference, equal as extended reals under finite features.

  Both programs count each node's in-degree by a segment sum of ones over the edges' destination words, take its
  reciprocal (zero for a node no edge enters), and gather the feature rows of the edges' source words. The reference
  scales every gathered row by the reciprocal degree of that edge's own destination and segment-sums the scaled rows;
  the kernel segment-sums the unscaled rows and lets its fused body scale the sum once per node before subtracting it
  from the node's features, multiplying by the transposed weights, adding the bias and clamping at zero. An edge summed
  into node `n` has destination `n`, so its factor is node `n`'s reciprocal degree, and the two means agree by
  distributing that one real factor over a finite sum of real numbers (Spec.lean) — which is where the precondition,
  finite features, is used (Finite.lean). Rounding to bf16 before the matrix unit is the identity on the extended reals,
  and the kernel's ten row blocks tile the array (KernelValue.lean); the reference's run is read one operation at a
  time (RefStages.lean, RefTail.lean). The ideal pass rewrote nothing, so `preserves` is `True`.
-/
import proofs.«133606_j46377056862934_2_alg».proof.Defs
import proofs.«133606_j46377056862934_2_alg».proof.Proof.Gen.Kernel
import proofs.«133606_j46377056862934_2_alg».proof.Proof.Gen.Kernel.Skeleton
import proofs.«133606_j46377056862934_2_alg».proof.Proof.Gen.Kernel.Launch
import proofs.«133606_j46377056862934_2_alg».proof.Proof.Gen.Kernel.Points
import proofs.«133606_j46377056862934_2_alg».proof.Proof.Gen.Kernel.Frame
import proofs.«133606_j46377056862934_2_alg».proof.Proof.Gen.KernelIdeal
import proofs.«133606_j46377056862934_2_alg».proof.Proof.Gen.KernelIdeal.Skeleton
import proofs.«133606_j46377056862934_2_alg».proof.Proof.Gen.KernelIdeal.Launch
import proofs.«133606_j46377056862934_2_alg».proof.Proof.Gen.KernelIdeal.Points
import proofs.«133606_j46377056862934_2_alg».proof.Proof.Gen.KernelIdeal.Frame
import proofs.«133606_j46377056862934_2_alg».proof.Proof.Gen.ReferenceIdeal
import proofs.«133606_j46377056862934_2_alg».proof.Proof.Gen.Pre_finite_inputs
import proofs.«133606_j46377056862934_2_alg».proof.Proof.Gen.KernelIdeal.Value
import proofs.«133606_j46377056862934_2_alg».proof.Proof.RefRunP
import proofs.«133606_j46377056862934_2_alg».proof.Proof.RefReadP
import proofs.«133606_j46377056862934_2_alg».proof.Proof.Finite
import proofs.«133606_j46377056862934_2_alg».proof.Proof.RefTail
import proofs.«133606_j46377056862934_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the layer of those arguments: the kernel with the
    neighbour sum scaled once per node, the reference with every neighbour scaled — one function of finite features. -/
theorem algebraic : Cert.algebraic_KernelIdeal_ReferenceIdeal := by
  intro m ρ m' ρ' hpre hagree
  refine ⟨fun c => HighPass.Kernel.result m c, HighPass.Kernel.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v39_eq, HighPass.Ref.reference_eq, (hagree c).1, (hagree c).2.1,
    (hagree c).2.2.1, (hagree c).2.2.2]
  exact (HighPass.sumThenScale_eq_scaleThenSum _ (fun i => HighPass.features_real _ _ _ _ (hpre c) i) _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
